-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩

abbrev nBuf : Space → Nat
  | .hbm => 33
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x256, .f32⟩
  | .local _ .vmem, ⟨11, _⟩ => ⟨S1x256, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x256, .f32⟩
  | .local _ .vmem, ⟨17, _⟩ => ⟨S1x256, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1x256, .f32⟩
  | .local _ .vmem, ⟨29, _⟩ => ⟨S1x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x2048.size a
  hwx0_2 : ∀ i : grid0.Coords, EltTy.bits .f32 = 32 ∨ (Rect.block (s := S8192x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .bf16 = 32 ∨ (Rect.block (s := S2048x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S8192x2048.size a
  hwx0_15 : ∀ i : grid0.Coords, EltTy.bits .f32 = 32 ∨ (Rect.block (s := S8192x2048) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S8192x2048.size a
  hwx0_16 : ∀ i : grid0.Coords, EltTy.bits .f32 = 32 ∨ (Rect.block (s := S8192x2048) S256x256.size (cc0_transform_16 i) (hinb0_16 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S256x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S256x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S4096x2048 : Shape := ⟨2, ![4096, 2048]⟩
abbrev S1x2048 : Shape := ⟨2, ![1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S4096x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S4096x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S4096x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S4096x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.Cell.lean ====
/-
  The recurrent cell that both programs compute, stated once, index by index, on the extended reals.

  A weight row has 4096 columns: the first 2048 meet the input row `x`, the last 2048 the state row `h`.
  A gate's pre-activation at batch row `r` and unit `n` is
      (∑ k, x (r, k) · W (n, k)  +  ∑ k, h (r, k) · W (n, 2048 + k))  +  b n,
  the logistic function is `1 / (1 + e^(-z))` with the extended reals' corners, and the cell is
      new_c = c · σ(gate₁) + σ(gate₂) · tanh(gate₃),        new_h = tanh(c) · σ(gate₄)
  (the new hidden state uses the OLD cell state `c`, as both source programs do).

  Also here: a sum over the 4096 columns is the sum over its first half plus the sum over its second half — a fact
  about any commutative monoid, so it holds at the infinities too and asks nothing of the inputs — and the
  single-precision pattern of `1.0` is the real number one.
-/
import Idealize.ShloMosaic.PureOps.Ideal
import Idealize.ShloMosaic.Lib.ValueIdx

noncomputable section

namespace Cert.Lstm

open Idealize.ShloMosaic Idealize.ShloMosaic.ValueIdx

/-- Column `k` of a weight row's input half. -/
abbrev inCol (k : Fin 2048) : Fin 4096 := ⟨k.val, by have := k.isLt; omega⟩

/-- Column `2048 + k` of a weight row: column `k` of its state half. -/
abbrev stCol (k : Fin 2048) : Fin 4096 := ⟨2048 + k.val, by have := k.isLt; omega⟩

/-- A sum over all 4096 columns is the sum over the input half plus the sum over the state half. -/
theorem sum_halves {M : Type*} [AddCommMonoid M] (f : Fin 4096 → M) :
    ∑ k : Fin 4096, f k = ∑ k : Fin 2048, f (inCol k) + ∑ k : Fin 2048, f (stCol k) :=
  Fin.sum_univ_add (a := 2048) (b := 2048) f

/-- The single-precision pattern `0x3F800000` denotes the real number one. -/
theorem one_f32 : Ideal.ofBits .f32 0x3F800000#32 = 1 := by
  simp [Ideal.ofBits, Ideal.ieee, -EReal.coe_mul]; norm_num

/-- A gate's pre-activation at batch row `r`, unit `n`: the input row against the input half of weight row `n`,
    plus the state row against its state half, plus the bias. -/
def gate (x h : (⟨2, ![8192, 2048]⟩ : Shape).Idx → EReal) (W : (⟨2, ![2048, 4096]⟩ : Shape).Idx → EReal)
    (b : (⟨1, ![2048]⟩ : Shape).Idx → EReal) (r : Fin 8192) (n : Fin 2048) : EReal :=
  (∑ k : Fin 2048, x (ix2 r k) * W (ix2 n (inCol k)) + ∑ k : Fin 2048, h (ix2 r k) * W (ix2 n (stCol k))) + b (ix1 n)

/-- The new hidden state: `tanh` of the old cell state times the output gate. -/
def newH (x h c : (⟨2, ![8192, 2048]⟩ : Shape).Idx → EReal) (W4 : (⟨2, ![2048, 4096]⟩ : Shape).Idx → EReal)
    (b4 : (⟨1, ![2048]⟩ : Shape).Idx → EReal) : (⟨2, ![8192, 2048]⟩ : Shape).Idx → EReal := fun j =>
  Ideal.tanh (c j) * Ideal.logistic (gate x h W4 b4 (j 0) (j 1))

/-- The new cell state: the old one through the forget gate, plus the input gate times the candidate. -/
def newC (x h c : (⟨2, ![8192, 2048]⟩ : Shape).Idx → EReal)
    (W1 : (⟨2, ![2048, 4096]⟩ : Shape).Idx → EReal) (b1 : (⟨1, ![2048]⟩ : Shape).Idx → EReal)
    (W2 : (⟨2, ![2048, 4096]⟩ : Shape).Idx → EReal) (b2 : (⟨1, ![2048]⟩ : Shape).Idx → EReal)
    (W3 : (⟨2, ![2048, 4096]⟩ : Shape).Idx → EReal) (b3 : (⟨1, ![2048]⟩ : Shape).Idx → EReal) :
    (⟨2, ![8192, 2048]⟩ : Shape).Idx → EReal := fun j =>
  c j * Ideal.logistic (gate x h W1 b1 (j 0) (j 1))
    + Ideal.logistic (gate x h W2 b2 (j 0) (j 1)) * Ideal.tanh (gate x h W3 b3 (j 0) (j 1))

end Cert.Lstm

end
-- ==== Proof.RefCell.lean ====
/-
  The reference program's two results are the cell of Cell.lean.

  The reference joins the input and state rows into one row of 4096 entries and multiplies it with the
  transposed weight matrix: entry (r, n) is the sum over all 4096 columns `k` of joined (r, k) · W (n, k). The joined
  row's first 2048 entries are the input row's and its last 2048 the state row's, so the sum splits at column 2048
  into the cell's two sums (`joined_dot`). The bias reaches every batch row by two broadcasts. The reference spells the
  logistic function out as negate, exponential, add one, divide one by it.
-/
import proofs.«170089_j9878424781322_2_alg».proof.Proof.Gen.ReferenceIdeal.Read
import proofs.«170089_j9878424781322_2_alg».proof.Proof.Cell
import Idealize.ShloMosaic.Lib.Pipeline.Value

noncomputable section

namespace Cert.Lstm.Ref

open Cert.ReferenceIdeal Cert.ReferenceIdeal.Gen Cert.ReferenceIdeal.Read
open Idealize.ShloMosaic Idealize.ShloMosaic.ValueIdx Cert.Lstm

/-- Row `r` of the joined matrix against row `n` of the weights, summed over all 4096 columns, is the input row
    against the weights' first 2048 columns plus the state row against their last 2048 — whatever index functions
    `L`, `R` name the operands' entries, as long as their coordinates are `(r, k)` and `(k, n)`. -/
theorem joined_dot (x0 x1 : S8192x2048.Idx → EReal) (W : S2048x4096.Idx → EReal) (r : Fin 8192) (n : Fin 2048)
    (L : Fin 4096 → S8192x4096.Idx) (R : Fin 4096 → S4096x2048.Idx)
    (hL0 : ∀ k, (L k 0).val = r.val) (hL1 : ∀ k, (L k 1).val = k.val)
    (hR0 : ∀ k, (R k 0).val = k.val) (hR1 : ∀ k, (R k 1).val = n.val) :
    ∑ k : Fin 4096, val_main_v0 (F := Ideal) x0 x1 (L k)
        * transpose S4096x2048 [1, 0] W transposes_S2048x4096_S4096x2048_1_0 (R k)
      = ∑ k : Fin 2048, x0 (ix2 r k) * W (ix2 n (inCol k)) + ∑ k : Fin 2048, x1 (ix2 r k) * W (ix2 n (stCol k)) := by
  rw [sum_halves]
  refine congrArg₂ (· + ·) (Finset.sum_congr rfl fun k _ => ?_) (Finset.sum_congr rfl fun k _ => ?_)
  · refine congrArg₂ (· * ·) ?_ ?_
    · unfold val_main_v0
      refine concatenate_pair_apply_left 1 x0 x1 _ (L (inCol k)) rfl (ix2 r k) fun b => ?_
      match b with
      | ⟨0, _⟩ => exact (hL0 (inCol k)).symm
      | ⟨1, _⟩ => exact (hL1 (inCol k)).symm
    · refine transpose_apply [1, 0] W _ (R (inCol k)) (ix2 n (inCol k)) fun b => ?_
      match b with
      | ⟨0, _⟩ => exact (hR0 (inCol k)).symm
      | ⟨1, _⟩ => exact (hR1 (inCol k)).symm
  · refine congrArg₂ (· * ·) ?_ ?_
    · unfold val_main_v0
      have e : (L (stCol k) 1).val = 2048 + k.val := hL1 (stCol k)
      refine concatenate_pair_apply_right 1 x0 x1 _ (L (stCol k)) rfl rfl (ix2 r k) (fun b hb => ?_) ?_
      · match b with
        | ⟨0, _⟩ => exact (hL0 (stCol k)).symm
        | ⟨1, _⟩ => exact absurd rfl hb
      · show k.val + 2048 = (L (stCol k) 1).val
        omega
    · refine transpose_apply [1, 0] W _ (R (stCol k)) (ix2 n (stCol k)) fun b => ?_
      match b with
      | ⟨0, _⟩ => exact (hR0 (stCol k)).symm
      | ⟨1, _⟩ => exact (hR1 (stCol k)).symm

/-- The forget gate's pre-activation as the reference computes it — the joined row against the transposed weights,
    plus the bias spread over the batch — is the cell's `gate`. -/
theorem pre_forget (x0 x1 : S8192x2048.Idx → EReal) (x3 : S2048x4096.Idx → EReal) (x4 : S2048.Idx → EReal)
    (j : S8192x2048.Idx) :
    val_main_v5 (F := Ideal) x0 x1 x3 x4 j = gate x0 x1 x3 x4 (j 0) (j 1) := by
  rw [val_main_v5_apply, val_main_v2_apply, val_main_v4_apply, val_main_v3_apply, Ideal.addf_def]
  unfold gate
  refine congrArg₂ (· + ·)
    (joined_dot x0 x1 x3 (j 0) (j 1) (lidx_main_v2 j) (ridx_main_v2 j)
      (fun _ => rfl) (fun _ => rfl) (fun _ => rfl) (fun _ => rfl))
    (congrArg x4 (funext fun a => Fin.ext (by match a with | ⟨0, _⟩ => rfl)))

/-- The input gate's pre-activation as the reference computes it — the joined row against the transposed weights,
    plus the bias spread over the batch — is the cell's `gate`. -/
theorem pre_input (x0 x1 : S8192x2048.Idx → EReal) (x5 : S2048x4096.Idx → EReal) (x6 : S2048.Idx → EReal)
    (j : S8192x2048.Idx) :
    val_main_v16 (F := Ideal) x0 x1 x5 x6 j = gate x0 x1 x5 x6 (j 0) (j 1) := by
  rw [val_main_v16_apply, val_main_v13_apply, val_main_v15_apply, val_main_v14_apply, Ideal.addf_def]
  unfold gate
  refine congrArg₂ (· + ·)
    (joined_dot x0 x1 x5 (j 0) (j 1) (lidx_main_v13 j) (ridx_main_v13 j)
      (fun _ => rfl) (fun _ => rfl) (fun _ => rfl) (fun _ => rfl))
    (congrArg x6 (funext fun a => Fin.ext (by match a with | ⟨0, _⟩ => rfl)))

/-- The candidate gate's pre-activation as the reference computes it — the joined row against the transposed weights,
    plus the bias spread over the batch — is the cell's `gate`. -/
theorem pre_candidate (x0 x1 : S8192x2048.Idx → EReal) (x7 : S2048x4096.Idx → EReal) (x8 : S2048.Idx → EReal)
    (j : S8192x2048.Idx) :
    val_main_v27 (F := Ideal) x0 x1 x7 x8 j = gate x0 x1 x7 x8 (j 0) (j 1) := by
  rw [val_main_v27_apply, val_main_v24_apply, val_main_v26_apply, val_main_v25_apply, Ideal.addf_def]
  unfold gate
  refine congrArg₂ (· + ·)
    (joined_dot x0 x1 x7 (j 0) (j 1) (lidx_main_v24 j) (ridx_main_v24 j)
      (fun _ => rfl) (fun _ => rfl) (fun _ => rfl) (fun _ => rfl))
    (congrArg x8 (funext fun a => Fin.ext (by match a with | ⟨0, _⟩ => rfl)))

/-- The output gate's pre-activation as the reference computes it — the joined row against the transposed weights,
    plus the bias spread over the batch — is the cell's `gate`. -/
theorem pre_output (x0 x1 : S8192x2048.Idx → EReal) (x9 : S2048x4096.Idx → EReal) (x10 : S2048.Idx → EReal)
    (j : S8192x2048.Idx) :
    val_main_v33 (F := Ideal) x0 x1 x9 x10 j = gate x0 x1 x9 x10 (j 0) (j 1) := by
  rw [val_main_v33_apply, val_main_v30_apply, val_main_v32_apply, val_main_v31_apply, Ideal.addf_def]
  unfold gate
  refine congrArg₂ (· + ·)
    (joined_dot x0 x1 x9 (j 0) (j 1) (lidx_main_v30 j) (ridx_main_v30 j)
      (fun _ => rfl) (fun _ => rfl) (fun _ => rfl) (fun _ => rfl))
    (congrArg x10 (funext fun a => Fin.ext (by match a with | ⟨0, _⟩ => rfl)))

/-- The reference's `1 / (1 + e^(-z))` at the forget gate is the logistic function of the gate. -/
theorem sig_forget (x0 x1 : S8192x2048.Idx → EReal) (x3 : S2048x4096.Idx → EReal) (x4 : S2048.Idx → EReal)
    (j : S8192x2048.Idx) :
    val_main_v11 (F := Ideal) x0 x1 x3 x4 j = Ideal.logistic (gate x0 x1 x3 x4 (j 0) (j 1)) := by
  rw [val_main_v11_apply, val_main_v10_apply, val_main_cst_0_apply, val_main_v9_apply, val_main_v8_apply,
    val_main_cst_apply, val_main_v7_apply, val_main_v6_apply, pre_forget]
  show Ideal.div (Ideal.ofBits .f32 0x3F800000#32)
      (Ideal.ofBits .f32 0x3F800000#32 + Ideal.exp (-(gate x0 x1 x3 x4 (j 0) (j 1)))) = _
  rw [one_f32]
  rfl

/-- The reference's `1 / (1 + e^(-z))` at the input gate is the logistic function of the gate. -/
theorem sig_input (x0 x1 : S8192x2048.Idx → EReal) (x5 : S2048x4096.Idx → EReal) (x6 : S2048.Idx → EReal)
    (j : S8192x2048.Idx) :
    val_main_v22 (F := Ideal) x0 x1 x5 x6 j = Ideal.logistic (gate x0 x1 x5 x6 (j 0) (j 1)) := by
  rw [val_main_v22_apply, val_main_v21_apply, val_main_cst_2_apply, val_main_v20_apply, val_main_v19_apply,
    val_main_cst_1_apply, val_main_v18_apply, val_main_v17_apply, pre_input]
  show Ideal.div (Ideal.ofBits .f32 0x3F800000#32)
      (Ideal.ofBits .f32 0x3F800000#32 + Ideal.exp (-(gate x0 x1 x5 x6 (j 0) (j 1)))) = _
  rw [one_f32]
  rfl

/-- The reference's `1 / (1 + e^(-z))` at the output gate is the logistic function of the gate. -/
theorem sig_output (x0 x1 : S8192x2048.Idx → EReal) (x9 : S2048x4096.Idx → EReal) (x10 : S2048.Idx → EReal)
    (j : S8192x2048.Idx) :
    val_main_v39 (F := Ideal) x0 x1 x9 x10 j = Ideal.logistic (gate x0 x1 x9 x10 (j 0) (j 1)) := by
  rw [val_main_v39_apply, val_main_v38_apply, val_main_cst_4_apply, val_main_v37_apply, val_main_v36_apply,
    val_main_cst_3_apply, val_main_v35_apply, val_main_v34_apply, pre_output]
  show Ideal.div (Ideal.ofBits .f32 0x3F800000#32)
      (Ideal.ofBits .f32 0x3F800000#32 + Ideal.exp (-(gate x0 x1 x9 x10 (j 0) (j 1)))) = _
  rw [one_f32]
  rfl

/-- The reference's first result is the new hidden state. -/
theorem newH_eq (x0 x1 x2 : S8192x2048.Idx → EReal) (x9 : S2048x4096.Idx → EReal) (x10 : S2048.Idx → EReal) :
    val_main_v44 (F := Ideal) x0 x1 x2 x9 x10 = newH x0 x1 x2 x9 x10 := by
  funext j
  rw [val_main_v44_apply, val_main_v43_apply, sig_output]
  rfl

/-- The reference's second result is the new cell state. -/
theorem newC_eq (x0 x1 x2 : S8192x2048.Idx → EReal) (x3 : S2048x4096.Idx → EReal) (x4 : S2048.Idx → EReal)
    (x5 : S2048x4096.Idx → EReal) (x6 : S2048.Idx → EReal) (x7 : S2048x4096.Idx → EReal) (x8 : S2048.Idx → EReal) :
    val_main_v42 (F := Ideal) x0 x1 x2 x3 x4 x5 x6 x7 x8 = newC x0 x1 x2 x3 x4 x5 x6 x7 x8 := by
  funext j
  rw [val_main_v42_apply, val_main_v40_apply, val_main_v41_apply, val_main_v28_apply, sig_forget, sig_input, pre_candidate]
  rfl

end Cert.Lstm.Ref

end
-- ==== Proof.Payload.lean ====
/-
  What the kernel's body stores at one grid point, entry by entry, on the extended reals.

  The body holds a 256-row tile of the input and of the state (each row whole: 2048 entries), a 256×256 tile of the
  old cell state, and, for each of the four gates, the 256 weight rows of the tile's units — their input half and
  their state half as two 256×2048 tiles — and the units' 256 biases as one row.
  Its matrix products contract the LAST axis of both operands: entry (p, q) is ∑ k, a (p, k) · b (q, k), a row of the
  data tile against a row of the weight tile, with no transpose in between (`rows_dot`). The bias row is spread over
  the tile's 256 rows (`bias_row`). Narrowing the data to half precision changes nothing on the extended reals.
  So a gate's pre-activation at tile entry (p, q) is `blockGate`, and the two stored tiles are the cell's formulas
  over `blockGate` (`stored_newH`, `stored_newC`).
-/
import proofs.«170089_j9878424781322_2_alg».proof.Proof.Gen.KernelIdeal.Skeleton
import proofs.«170089_j9878424781322_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.Lstm.Body

open Cert.KernelIdeal Cert.KernelIdeal.Gen
open Idealize.ShloMosaic Idealize.ShloMosaic.ValueIdx Cert.Lstm

/-! ## The matrix product of the body at an entry -/

theorem lhs_row (j : S256x256.Idx) (κ : dot_S256x2048_S256x2048_S256x256_1_1_0_0_n_n.contr.Idx) :
    (dot_S256x2048_S256x2048_S256x256_1_1_0_0_n_n.lhsIdx j κ 0).val = (j 0).val := by
  unfold DotDims.lhsIdx
  rw [dif_neg (show ¬(0 : Fin S256x2048.rank) ∈ dot_S256x2048_S256x2048_S256x256_1_1_0_0_n_n.lhsBatch by decide),
    dif_pos (show (0 : Fin S256x2048.rank) ∈ dot_S256x2048_S256x2048_S256x256_1_1_0_0_n_n.lhsNonContracting by decide)]
  rfl

theorem lhs_col (j : S256x256.Idx) (κ : dot_S256x2048_S256x2048_S256x256_1_1_0_0_n_n.contr.Idx) :
    (dot_S256x2048_S256x2048_S256x256_1_1_0_0_n_n.lhsIdx j κ 1).val = (κ ⟨0, by decide⟩).val :=
  dot_S256x2048_S256x2048_S256x256_1_1_0_0_n_n.lhsIdx_val_of_single rfl j κ

theorem rhs_row (j : S256x256.Idx) (κ : dot_S256x2048_S256x2048_S256x256_1_1_0_0_n_n.contr.Idx) :
    (dot_S256x2048_S256x2048_S256x256_1_1_0_0_n_n.rhsIdx j κ 0).val = (j 1).val := by
  unfold DotDims.rhsIdx
  rw [dif_neg (show ¬(0 : Fin S256x2048.rank) ∈ dot_S256x2048_S256x2048_S256x256_1_1_0_0_n_n.rhsBatch by decide),
    dif_pos (show (0 : Fin S256x2048.rank) ∈ dot_S256x2048_S256x2048_S256x256_1_1_0_0_n_n.rhsNonContracting by decide)]
  rfl

theorem rhs_col (j : S256x256.Idx) (κ : dot_S256x2048_S256x2048_S256x256_1_1_0_0_n_n.contr.Idx) :
    (dot_S256x2048_S256x2048_S256x256_1_1_0_0_n_n.rhsIdx j κ 1).val = (κ ⟨0, by decide⟩).val :=
  dot_S256x2048_S256x2048_S256x256_1_1_0_0_n_n.rhsIdx_val_of_single rfl j κ

/-- The body's matrix product into a zero accumulator, at entry (p, q): row `p` of the left tile against row `q` of
    the right tile. -/
theorem rows_dot (a b : FVec Ideal S256x2048 .bf16) (p q : Fin 256) :
    matmul dot_S256x2048_S256x2048_S256x256_1_1_0_0_n_n none a b (constant S256x256 .f32 0x00000000#32) (ix2 p q)
      = ∑ k : Fin 2048, a (ix2 p k) * b (ix2 q k) := by
  simp only [matmul]
  rw [Ideal.matmul_constant_zero_apply,
    ← Equiv.sum_comp (contrEquiv1 dot_S256x2048_S256x2048_S256x256_1_1_0_0_n_n 2048 rfl rfl).symm]
  refine Finset.sum_congr rfl fun k _ => ?_
  have hk := contrEquiv1_symm_val dot_S256x2048_S256x2048_S256x256_1_1_0_0_n_n 2048 rfl rfl k
  have el : dot_S256x2048_S256x2048_S256x256_1_1_0_0_n_n.lhsIdx (ix2 p q) ((contrEquiv1 dot_S256x2048_S256x2048_S256x256_1_1_0_0_n_n 2048 rfl rfl).symm k) = ix2 p k :=
    funext fun ax => Fin.ext (by
      match ax with
      | ⟨0, _⟩ => exact lhs_row _ _
      | ⟨1, _⟩ => exact (lhs_col _ _).trans hk)
  have er : dot_S256x2048_S256x2048_S256x256_1_1_0_0_n_n.rhsIdx (ix2 p q) ((contrEquiv1 dot_S256x2048_S256x2048_S256x256_1_1_0_0_n_n 2048 rfl rfl).symm k) = ix2 q k :=
    funext fun ax => Fin.ext (by
      match ax with
      | ⟨0, _⟩ => exact rhs_row _ _
      | ⟨1, _⟩ => exact (rhs_col _ _).trans hk)
  rw [el, er]

/-! ## The pointwise and layout operations at an entry -/

theorem tanh_at {s : Shape} {φ : FTy} (x : FVec Ideal s φ) (i : s.Idx) : tanh x i = Ideal.tanh (x i) := rfl

theorem logistic_at {s : Shape} {φ : FTy} (x : FVec Ideal s φ) (i : s.Idx) : logistic x i = Ideal.logistic (x i) := rfl

/-- The bias row, spread over the tile's rows, at entry (p, q) is the row's entry `q`. -/
theorem bias_row (bb : FVec Ideal S1x256 .f32) (p q : Fin 256) :
    broadcastTo S256x256 bb broadcasts_S1x256_S256x256 (ix2 p q) = bb (ix2 (0 : Fin 1) q) :=
  broadcastTo_1b_ab_apply bb broadcasts_S1x256_S256x256 p q

/-! ## A gate inside the tile, and the two stored tiles -/

/-- A gate's pre-activation at entry (p, q) of the tile, from the tiles the body holds: data rows `p` against weight
    rows `q`, input half and state half, plus entry `q` of the bias row. -/
def blockGate (x h : Vec Ideal S256x2048 .f32) (wi wh : Vec Ideal S256x2048 .bf16) (bb : Vec Ideal S1x256 .f32)
    (p q : Fin 256) : EReal :=
  (∑ k : Fin 2048, x (ix2 p k) * wi (ix2 q k) + ∑ k : Fin 2048, h (ix2 p k) * wh (ix2 q k)) + bb (ix2 (0 : Fin 1) q)

/-- The tile stored into the new hidden state. -/
theorem stored_newH (v0 v2 : Vec Ideal S256x2048 .f32) (v4 : Vec Ideal S256x256 .f32)
    (w4i w4h : Vec Ideal S256x2048 .bf16) (b4 : Vec Ideal S1x256 .f32) (p q : Fin 256) :
    k0_pay2 (k0_pay3 v0) (k0_pay4 v2) v4 w4i w4h b4 (ix2 p q)
      = Ideal.tanh (v4 (ix2 p q)) * Ideal.logistic (blockGate v0 v2 w4i w4h b4 p q) := by
  unfold k0_pay2 k0_pay3 k0_pay4 blockGate
  simp only [mulf_apply, addf_apply, tanh_at, logistic_at, shapeCast_self, rows_dot, bias_row, truncf_apply]

/-- The tile stored into the new cell state. -/
theorem stored_newC (v0 v2 : Vec Ideal S256x2048 .f32) (v4 : Vec Ideal S256x256 .f32)
    (w1i w1h : Vec Ideal S256x2048 .bf16) (b1 : Vec Ideal S1x256 .f32)
    (w2i w2h : Vec Ideal S256x2048 .bf16) (b2 : Vec Ideal S1x256 .f32)
    (w3i w3h : Vec Ideal S256x2048 .bf16) (b3 : Vec Ideal S1x256 .f32) (p q : Fin 256) :
    k0_pay1 (k0_pay3 v0) (k0_pay4 v2) (k0_pay5 v0 v2 v4 w1i w1h b1) (k0_pay6 v0 v2 w2i w2h b2) (k0_pay7 w3i) w3h b3
        (ix2 p q)
      = v4 (ix2 p q) * Ideal.logistic (blockGate v0 v2 w1i w1h b1 p q)
        + Ideal.logistic (blockGate v0 v2 w2i w2h b2 p q) * Ideal.tanh (blockGate v0 v2 w3i w3h b3 p q) := by
  unfold k0_pay1 k0_pay5 k0_pay6 k0_pay7 k0_pay3 k0_pay4 blockGate
  simp only [mulf_apply, addf_apply, tanh_at, logistic_at, shapeCast_self, rows_dot, bias_row, truncf_apply]

end Cert.Lstm.Body

end
-- ==== Proof.Tile.lean ====
/-
  From a tile to the whole arrays.

  Suppose the tiles the body holds at a grid point are pieces of the whole arrays: data-tile row `y 0` is array row
  `i 0`, weight-tile row `y 1` is weight row `i 1` (its input half, and its state half 2048 columns further on), entry
  `y 1` of the bias row is bias `i 1`, and the old-cell tile at `y` is the old cell state at `i`. Then a gate inside the
  tile is the cell's gate at `(i 0, i 1)` — the same sums, term by term — and what the body stores at tile entry `y`
  is the cell's new hidden state, and new cell state, at array index `i`.
-/
import proofs.«170089_j9878424781322_2_alg».proof.Proof.Payload

noncomputable section

namespace Cert.Lstm.Body

open Cert.KernelIdeal Cert.KernelIdeal.Gen
open Idealize.ShloMosaic Idealize.ShloMosaic.ValueIdx Cert.Lstm

/-- A gate inside the tile is the cell's gate, when the tile's rows are the arrays' rows. -/
theorem blockGate_eq (X H : S8192x2048.Idx → EReal) (W : S2048x4096.Idx → EReal) (B : S2048.Idx → EReal)
    (x0 x1 : Vec Ideal S256x2048 .f32) (wi wh : Vec Ideal S256x2048 .bf16) (bb : Vec Ideal S1x256 .f32)
    (p q : Fin 256) (r : Fin 8192) (n : Fin 2048)
    (h0 : ∀ k : Fin 2048, x0 (ix2 p k) = X (ix2 r k))
    (h1 : ∀ k : Fin 2048, x1 (ix2 p k) = H (ix2 r k))
    (hwi : ∀ k : Fin 2048, wi (ix2 q k) = W (ix2 n (inCol k)))
    (hwh : ∀ k : Fin 2048, wh (ix2 q k) = W (ix2 n (stCol k)))
    (hb : bb (ix2 (0 : Fin 1) q) = B (ix1 n)) :
    blockGate x0 x1 wi wh bb p q = gate X H W B r n := by
  unfold blockGate gate
  rw [hb]
  exact congrArg (· + B (ix1 n)) (congrArg₂ (· + ·)
    (Finset.sum_congr rfl fun k _ => by rw [h0 k, hwi k])
    (Finset.sum_congr rfl fun k _ => by rw [h1 k, hwh k]))

/-- What the body stores into the new hidden state at tile entry `y` is the cell's new hidden state at `i`. -/
theorem tile_newH (X H C : S8192x2048.Idx → EReal) (W4 : S2048x4096.Idx → EReal) (B4 : S2048.Idx → EReal)
    (x0 x1 : Vec Ideal S256x2048 .f32) (x2 : Vec Ideal S256x256 .f32)
    (w4i w4h : Vec Ideal S256x2048 .bf16) (b4 : Vec Ideal S1x256 .f32)
    (y : S256x256.Idx) (i : S8192x2048.Idx)
    (h0 : ∀ k : Fin 2048, x0 (ix2 (y 0) k) = X (ix2 (i 0) k))
    (h1 : ∀ k : Fin 2048, x1 (ix2 (y 0) k) = H (ix2 (i 0) k))
    (h2 : x2 y = C i)
    (h4i : ∀ k : Fin 2048, w4i (ix2 (y 1) k) = W4 (ix2 (i 1) (inCol k)))
    (h4h : ∀ k : Fin 2048, w4h (ix2 (y 1) k) = W4 (ix2 (i 1) (stCol k)))
    (h4b : b4 (ix2 (0 : Fin 1) (y 1)) = B4 (ix1 (i 1))) :
    k0_pay2 (k0_pay3 x0) (k0_pay4 x1) x2 w4i w4h b4 y = newH X H C W4 B4 i := by
  obtain ⟨p, q, rfl⟩ : ∃ (p : Fin 256) (q : Fin 256), y = ix2 p q := ⟨y 0, y 1, eq_ix2 y⟩
  rw [stored_newH, h2]
  unfold newH
  rw [blockGate_eq X H W4 B4 x0 x1 w4i w4h b4 p q (i 0) (i 1) h0 h1 h4i h4h h4b]

/-- What the body stores into the new cell state at tile entry `y` is the cell's new cell state at `i`. -/
theorem tile_newC (X H C : S8192x2048.Idx → EReal)
    (W1 : S2048x4096.Idx → EReal) (B1 : S2048.Idx → EReal) (W2 : S2048x4096.Idx → EReal) (B2 : S2048.Idx → EReal)
    (W3 : S2048x4096.Idx → EReal) (B3 : S2048.Idx → EReal)
    (x0 x1 : Vec Ideal S256x2048 .f32) (x2 : Vec Ideal S256x256 .f32)
    (w1i w1h : Vec Ideal S256x2048 .bf16) (b1 : Vec Ideal S1x256 .f32)
    (w2i w2h : Vec Ideal S256x2048 .bf16) (b2 : Vec Ideal S1x256 .f32)
    (w3i w3h : Vec Ideal S256x2048 .bf16) (b3 : Vec Ideal S1x256 .f32)
    (y : S256x256.Idx) (i : S8192x2048.Idx)
    (h0 : ∀ k : Fin 2048, x0 (ix2 (y 0) k) = X (ix2 (i 0) k))
    (h1 : ∀ k : Fin 2048, x1 (ix2 (y 0) k) = H (ix2 (i 0) k))
    (h2 : x2 y = C i)
    (h1i : ∀ k : Fin 2048, w1i (ix2 (y 1) k) = W1 (ix2 (i 1) (inCol k)))
    (h1h : ∀ k : Fin 2048, w1h (ix2 (y 1) k) = W1 (ix2 (i 1) (stCol k)))
    (h1b : b1 (ix2 (0 : Fin 1) (y 1)) = B1 (ix1 (i 1)))
    (h2i : ∀ k : Fin 2048, w2i (ix2 (y 1) k) = W2 (ix2 (i 1) (inCol k)))
    (h2h : ∀ k : Fin 2048, w2h (ix2 (y 1) k) = W2 (ix2 (i 1) (stCol k)))
    (h2b : b2 (ix2 (0 : Fin 1) (y 1)) = B2 (ix1 (i 1)))
    (h3i : ∀ k : Fin 2048, w3i (ix2 (y 1) k) = W3 (ix2 (i 1) (inCol k)))
    (h3h : ∀ k : Fin 2048, w3h (ix2 (y 1) k) = W3 (ix2 (i 1) (stCol k)))
    (h3b : b3 (ix2 (0 : Fin 1) (y 1)) = B3 (ix1 (i 1))) :
    k0_pay1 (k0_pay3 x0) (k0_pay4 x1) (k0_pay5 x0 x1 x2 w1i w1h b1) (k0_pay6 x0 x1 w2i w2h b2) (k0_pay7 w3i) w3h b3 y
      = newC X H C W1 B1 W2 B2 W3 B3 i := by
  obtain ⟨p, q, rfl⟩ : ∃ (p : Fin 256) (q : Fin 256), y = ix2 p q := ⟨y 0, y 1, eq_ix2 y⟩
  rw [stored_newC, h2]
  unfold newC
  rw [blockGate_eq X H W1 B1 x0 x1 w1i w1h b1 p q (i 0) (i 1) h0 h1 h1i h1h h1b,
    blockGate_eq X H W2 B2 x0 x1 w2i w2h b2 p q (i 0) (i 1) h0 h1 h2i h2h h2b,
    blockGate_eq X H W3 B3 x0 x1 w3i w3h b3 p q (i 0) (i 1) h0 h1 h3i h3h h3b]

end Cert.Lstm.Body

end
-- ==== Proof.HostArrays.lean ====
/-
  The arrays the host prepares before the kernel is launched, read at an entry.

  Each weight matrix (2048 rows, 4096 columns) is cut into its first 2048 columns (the input half) and its last 2048
  (the state half), and each half is narrowed to half precision — which changes nothing on the extended reals. So
  entry (n, k) of an input half is the matrix's entry (n, k), and entry (n, k) of a state half is its entry
  (n, 2048 + k). Each bias vector is re-laid as one row of 2048 entries: entry (0, n) of the row is bias `n`.
-/
import proofs.«170089_j9878424781322_2_alg».proof.Proof.Gen.KernelIdeal.Frame
import proofs.«170089_j9878424781322_2_alg».proof.Proof.Cell
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

noncomputable section

namespace Cert.Lstm.Host

open Cert.KernelIdeal Cert.KernelIdeal.Gen Idealize.ShloMosaic Idealize.ShloMosaic.TcCoe Idealize.SL.Sem
open Idealize.ShloMosaic.StableHlo Idealize.ShloMosaic.ValueIdx Cert.Lstm

variable (m : (ℓ : Loc nD τ sig) → Buf (Elt Ideal) ℓ)

/-- `main_v1`: the input half of the forget gate's weights, narrowed. -/
theorem v1_eq (c : Dev nD) : (V m c main_v1 : S2048x2048.Idx → EReal)
    = truncf (F := Ideal) .bf16 (extractStridedSlice S2048x2048 ![0, 0] (m ((c : Thread nD τ).loc main_arg3)) slices_S2048x4096_S2048x2048_0_0)
        bitsLt_bf16_f32 := by
  dsimp only [Gen.V, Gen.hostOps0]; after_results <;> rfl

/-- Its entry (n, k) is the weight matrix's entry (n, k). -/
theorem v1_at (c : Dev nD) (n k : Fin 2048) : (V m c main_v1 : S2048x2048.Idx → EReal) (ix2 n k)
    = m ((c : Thread nD τ).loc main_arg3) (ix2 n (inCol k)) := by
  rw [v1_eq, truncf_apply]
  exact slice2_axis1_apply 0 _ slices_S2048x4096_S2048x2048_0_0 n k (inCol k) (Nat.zero_add _).symm

/-- `main_v3`: the state half of the forget gate's weights, narrowed. -/
theorem v3_eq (c : Dev nD) : (V m c main_v3 : S2048x2048.Idx → EReal)
    = truncf (F := Ideal) .bf16 (extractStridedSlice S2048x2048 ![0, 2048] (m ((c : Thread nD τ).loc main_arg3)) slices_S2048x4096_S2048x2048_0_2048)
        bitsLt_bf16_f32 := by
  dsimp only [Gen.V, Gen.hostOps0]; after_results <;> rfl

/-- Its entry (n, k) is the weight matrix's entry (n, 2048 + k). -/
theorem v3_at (c : Dev nD) (n k : Fin 2048) : (V m c main_v3 : S2048x2048.Idx → EReal) (ix2 n k)
    = m ((c : Thread nD τ).loc main_arg3) (ix2 n (stCol k)) := by
  rw [v3_eq, truncf_apply]
  exact slice2_axis1_apply 2048 _ slices_S2048x4096_S2048x2048_0_2048 n k (stCol k) rfl

/-- `main_v5`: the input half of the input gate's weights, narrowed. -/
theorem v5_eq (c : Dev nD) : (V m c main_v5 : S2048x2048.Idx → EReal)
    = truncf (F := Ideal) .bf16 (extractStridedSlice S2048x2048 ![0, 0] (m ((c : Thread nD τ).loc main_arg5)) slices_S2048x4096_S2048x2048_0_0)
        bitsLt_bf16_f32 := by
  dsimp only [Gen.V, Gen.hostOps0]; after_results <;> rfl

/-- Its entry (n, k) is the weight matrix's entry (n, k). -/
theorem v5_at (c : Dev nD) (n k : Fin 2048) : (V m c main_v5 : S2048x2048.Idx → EReal) (ix2 n k)
    = m ((c : Thread nD τ).loc main_arg5) (ix2 n (inCol k)) := by
  rw [v5_eq, truncf_apply]
  exact slice2_axis1_apply 0 _ slices_S2048x4096_S2048x2048_0_0 n k (inCol k) (Nat.zero_add _).symm

/-- `main_v7`: the state half of the input gate's weights, narrowed. -/
theorem v7_eq (c : Dev nD) : (V m c main_v7 : S2048x2048.Idx → EReal)
    = truncf (F := Ideal) .bf16 (extractStridedSlice S2048x2048 ![0, 2048] (m ((c : Thread nD τ).loc main_arg5)) slices_S2048x4096_S2048x2048_0_2048)
        bitsLt_bf16_f32 := by
  dsimp only [Gen.V, Gen.hostOps0]; after_results <;> rfl

/-- Its entry (n, k) is the weight matrix's entry (n, 2048 + k). -/
theorem v7_at (c : Dev nD) (n k : Fin 2048) : (V m c main_v7 : S2048x2048.Idx → EReal) (ix2 n k)
    = m ((c : Thread nD τ).loc main_arg5) (ix2 n (stCol k)) := by
  rw [v7_eq, truncf_apply]
  exact slice2_axis1_apply 2048 _ slices_S2048x4096_S2048x2048_0_2048 n k (stCol k) rfl

/-- `main_v9`: the input half of the candidate gate's weights, narrowed. -/
theorem v9_eq (c : Dev nD) : (V m c main_v9 : S2048x2048.Idx → EReal)
    = truncf (F := Ideal) .bf16 (extractStridedSlice S2048x2048 ![0, 0] (m ((c : Thread nD τ).loc main_arg7)) slices_S2048x4096_S2048x2048_0_0)
        bitsLt_bf16_f32 := by
  dsimp only [Gen.V, Gen.hostOps0]; after_results <;> rfl

/-- Its entry (n, k) is the weight matrix's entry (n, k). -/
theorem v9_at (c : Dev nD) (n k : Fin 2048) : (V m c main_v9 : S2048x2048.Idx → EReal) (ix2 n k)
    = m ((c : Thread nD τ).loc main_arg7) (ix2 n (inCol k)) := by
  rw [v9_eq, truncf_apply]
  exact slice2_axis1_apply 0 _ slices_S2048x4096_S2048x2048_0_0 n k (inCol k) (Nat.zero_add _).symm

/-- `main_v11`: the state half of the candidate gate's weights, narrowed. -/
theorem v11_eq (c : Dev nD) : (V m c main_v11 : S2048x2048.Idx → EReal)
    = truncf (F := Ideal) .bf16 (extractStridedSlice S2048x2048 ![0, 2048] (m ((c : Thread nD τ).loc main_arg7)) slices_S2048x4096_S2048x2048_0_2048)
        bitsLt_bf16_f32 := by
  dsimp only [Gen.V, Gen.hostOps0]; after_results <;> rfl

/-- Its entry (n, k) is the weight matrix's entry (n, 2048 + k). -/
theorem v11_at (c : Dev nD) (n k : Fin 2048) : (V m c main_v11 : S2048x2048.Idx → EReal) (ix2 n k)
    = m ((c : Thread nD τ).loc main_arg7) (ix2 n (stCol k)) := by
  rw [v11_eq, truncf_apply]
  exact slice2_axis1_apply 2048 _ slices_S2048x4096_S2048x2048_0_2048 n k (stCol k) rfl

/-- `main_v13`: the input half of the output gate's weights, narrowed. -/
theorem v13_eq (c : Dev nD) : (V m c main_v13 : S2048x2048.Idx → EReal)
    = truncf (F := Ideal) .bf16 (extractStridedSlice S2048x2048 ![0, 0] (m ((c : Thread nD τ).loc main_arg9)) slices_S2048x4096_S2048x2048_0_0)
        bitsLt_bf16_f32 := by
  dsimp only [Gen.V, Gen.hostOps0]; after_results <;> rfl

/-- Its entry (n, k) is the weight matrix's entry (n, k). -/
theorem v13_at (c : Dev nD) (n k : Fin 2048) : (V m c main_v13 : S2048x2048.Idx → EReal) (ix2 n k)
    = m ((c : Thread nD τ).loc main_arg9) (ix2 n (inCol k)) := by
  rw [v13_eq, truncf_apply]
  exact slice2_axis1_apply 0 _ slices_S2048x4096_S2048x2048_0_0 n k (inCol k) (Nat.zero_add _).symm

/-- `main_v15`: the state half of the output gate's weights, narrowed. -/
theorem v15_eq (c : Dev nD) : (V m c main_v15 : S2048x2048.Idx → EReal)
    = truncf (F := Ideal) .bf16 (extractStridedSlice S2048x2048 ![0, 2048] (m ((c : Thread nD τ).loc main_arg9)) slices_S2048x4096_S2048x2048_0_2048)
        bitsLt_bf16_f32 := by
  dsimp only [Gen.V, Gen.hostOps0]; after_results <;> rfl

/-- Its entry (n, k) is the weight matrix's entry (n, 2048 + k). -/
theorem v15_at (c : Dev nD) (n k : Fin 2048) : (V m c main_v15 : S2048x2048.Idx → EReal) (ix2 n k)
    = m ((c : Thread nD τ).loc main_arg9) (ix2 n (stCol k)) := by
  rw [v15_eq, truncf_apply]
  exact slice2_axis1_apply 2048 _ slices_S2048x4096_S2048x2048_0_2048 n k (stCol k) rfl

/-- `main_v16`: the forget gate's biases as one row. -/
theorem v16_eq (c : Dev nD) : (V m c main_v16 : S1x2048.Idx → EReal)
    = shapeCast S1x2048 (m ((c : Thread nD τ).loc main_arg4)) shapeCasts_S2048_S1x2048 := by
  dsimp only [Gen.V, Gen.hostOps0]; after_results <;> rfl

/-- Its entry (0, n) is bias `n`. -/
theorem v16_at (c : Dev nD) (n : Fin 2048) : (V m c main_v16 : S1x2048.Idx → EReal) (ix2 (0 : Fin 1) n)
    = m ((c : Thread nD τ).loc main_arg4) (ix1 n) := by
  rw [v16_eq]
  exact shapeCast_a_1a_apply _ shapeCasts_S2048_S1x2048 0 n

/-- `main_v17`: the input gate's biases as one row. -/
theorem v17_eq (c : Dev nD) : (V m c main_v17 : S1x2048.Idx → EReal)
    = shapeCast S1x2048 (m ((c : Thread nD τ).loc main_arg6)) shapeCasts_S2048_S1x2048 := by
  dsimp only [Gen.V, Gen.hostOps0]; after_results <;> rfl

/-- Its entry (0, n) is bias `n`. -/
theorem v17_at (c : Dev nD) (n : Fin 2048) : (V m c main_v17 : S1x2048.Idx → EReal) (ix2 (0 : Fin 1) n)
    = m ((c : Thread nD τ).loc main_arg6) (ix1 n) := by
  rw [v17_eq]
  exact shapeCast_a_1a_apply _ shapeCasts_S2048_S1x2048 0 n

/-- `main_v18`: the candidate gate's biases as one row. -/
theorem v18_eq (c : Dev nD) : (V m c main_v18 : S1x2048.Idx → EReal)
    = shapeCast S1x2048 (m ((c : Thread nD τ).loc main_arg8)) shapeCasts_S2048_S1x2048 := by
  dsimp only [Gen.V, Gen.hostOps0]; after_results <;> rfl

/-- Its entry (0, n) is bias `n`. -/
theorem v18_at (c : Dev nD) (n : Fin 2048) : (V m c main_v18 : S1x2048.Idx → EReal) (ix2 (0 : Fin 1) n)
    = m ((c : Thread nD τ).loc main_arg8) (ix1 n) := by
  rw [v18_eq]
  exact shapeCast_a_1a_apply _ shapeCasts_S2048_S1x2048 0 n

/-- `main_v19`: the output gate's biases as one row. -/
theorem v19_eq (c : Dev nD) : (V m c main_v19 : S1x2048.Idx → EReal)
    = shapeCast S1x2048 (m ((c : Thread nD τ).loc main_arg10)) shapeCasts_S2048_S1x2048 := by
  dsimp only [Gen.V, Gen.hostOps0]; after_results <;> rfl

/-- Its entry (0, n) is bias `n`. -/
theorem v19_at (c : Dev nD) (n : Fin 2048) : (V m c main_v19 : S1x2048.Idx → EReal) (ix2 (0 : Fin 1) n)
    = m ((c : Thread nD τ).loc main_arg10) (ix1 n) := by
  rw [v19_eq]
  exact shapeCast_a_1a_apply _ shapeCasts_S2048_S1x2048 0 n

end Cert.Lstm.Host

end
-- ==== Proof.Grid.lean ====
/-
  The grid: 8 × 32 points. Point (n, m) works on batch rows 256·m … 256·m + 255 and units 256·n … 256·n + 255.

  Decided once over the 256 points, from the printed index maps: the input and state tiles sit at block row `m` (the
  output block's row index) and take their rows whole; the old-cell tile and both output tiles sit at block (m, n);
  every weight tile sits at block row `n` (the output block's COLUMN index) and takes its rows whole; every bias tile
  is block `n` of the one bias row. And the 32 × 8 output blocks are each some point's, so between them the points
  write every index of an output array.
-/
import proofs.«170089_j9878424781322_2_alg».proof.Proof.Gen.KernelIdeal.Points
import Idealize.ShloMosaic.Lib.Pipeline.Value

set_option maxRecDepth 16384

noncomputable section

namespace Cert.Lstm.Grid

open Cert.KernelIdeal Cert.KernelIdeal.Gen Idealize.ShloMosaic Idealize.ShloMosaic.TcCoe Idealize.SL.Sem

/-! ## Where each window's block sits, relative to the output's block -/

theorem idx_rows : ∀ t : Fin cfg0.N, win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = win0_15.index t (1 : Fin 2) :=
  (by decide +kernel : ∀ t : Fin grid0.N, _)

theorem idx_out : ∀ t : Fin cfg0.N, win0_16.index t (0 : Fin 2) = win0_15.index t (0 : Fin 2)
    ∧ win0_16.index t (1 : Fin 2) = win0_15.index t (1 : Fin 2) :=
  (by decide +kernel : ∀ t : Fin grid0.N, _)

theorem idx_w3 : ∀ t : Fin cfg0.N, win0_3.index t (0 : Fin 2) = win0_15.index t (1 : Fin 2) ∧ win0_3.index t (1 : Fin 2) = 0 :=
  (by decide +kernel : ∀ t : Fin grid0.N, _)

theorem idx_w4 : ∀ t : Fin cfg0.N, win0_4.index t (0 : Fin 2) = win0_15.index t (1 : Fin 2) ∧ win0_4.index t (1 : Fin 2) = 0 :=
  (by decide +kernel : ∀ t : Fin grid0.N, _)

theorem idx_w6 : ∀ t : Fin cfg0.N, win0_6.index t (0 : Fin 2) = win0_15.index t (1 : Fin 2) ∧ win0_6.index t (1 : Fin 2) = 0 :=
  (by decide +kernel : ∀ t : Fin grid0.N, _)

theorem idx_w7 : ∀ t : Fin cfg0.N, win0_7.index t (0 : Fin 2) = win0_15.index t (1 : Fin 2) ∧ win0_7.index t (1 : Fin 2) = 0 :=
  (by decide +kernel : ∀ t : Fin grid0.N, _)

theorem idx_w9 : ∀ t : Fin cfg0.N, win0_9.index t (0 : Fin 2) = win0_15.index t (1 : Fin 2) ∧ win0_9.index t (1 : Fin 2) = 0 :=
  (by decide +kernel : ∀ t : Fin grid0.N, _)

theorem idx_w10 : ∀ t : Fin cfg0.N, win0_10.index t (0 : Fin 2) = win0_15.index t (1 : Fin 2) ∧ win0_10.index t (1 : Fin 2) = 0 :=
  (by decide +kernel : ∀ t : Fin grid0.N, _)

theorem idx_w12 : ∀ t : Fin cfg0.N, win0_12.index t (0 : Fin 2) = win0_15.index t (1 : Fin 2) ∧ win0_12.index t (1 : Fin 2) = 0 :=
  (by decide +kernel : ∀ t : Fin grid0.N, _)

theorem idx_w13 : ∀ t : Fin cfg0.N, win0_13.index t (0 : Fin 2) = win0_15.index t (1 : Fin 2) ∧ win0_13.index t (1 : Fin 2) = 0 :=
  (by decide +kernel : ∀ t : Fin grid0.N, _)

theorem idx_b5 : ∀ t : Fin cfg0.N, win0_5.index t (0 : Fin 2) = 0 ∧ win0_5.index t (1 : Fin 2) = win0_15.index t (1 : Fin 2) :=
  (by decide +kernel : ∀ t : Fin grid0.N, _)

theorem idx_b8 : ∀ t : Fin cfg0.N, win0_8.index t (0 : Fin 2) = 0 ∧ win0_8.index t (1 : Fin 2) = win0_15.index t (1 : Fin 2) :=
  (by decide +kernel : ∀ t : Fin grid0.N, _)

theorem idx_b11 : ∀ t : Fin cfg0.N, win0_11.index t (0 : Fin 2) = 0 ∧ win0_11.index t (1 : Fin 2) = win0_15.index t (1 : Fin 2) :=
  (by decide +kernel : ∀ t : Fin grid0.N, _)

theorem idx_b14 : ∀ t : Fin cfg0.N, win0_14.index t (0 : Fin 2) = 0 ∧ win0_14.index t (1 : Fin 2) = win0_15.index t (1 : Fin 2) :=
  (by decide +kernel : ∀ t : Fin grid0.N, _)

/-! ## The output blocks cover the output arrays -/

/-- An index of the array lies in point `t`'s block of output window 15 iff each coordinate lies in the block's range. -/
theorem mem_blk15 (t : Fin cfg0.N) (i : S8192x2048.Idx) :
    i ∈ ((cfg0.win 15).blk t).view.set ↔ ∀ a : Fin 2, win0_15.index t a * S256x256.size a ≤ (i a).val
      ∧ (i a).val < win0_15.index t a * S256x256.size a + S256x256.size a := by
  show i ∈ ((View.whole main_v20_0).slice (win0_15.rect t)).set ↔ _
  rw [View.set_slice_whole, Rect.mem_set_unit]
  exact Iff.rfl

/-- Every 256×256 block of the 8192×2048 array is some grid point's block of output window 15. -/
theorem idx_onto15 : ∀ (q0 : Fin 32) (q1 : Fin 8), ∃ t : Fin cfg0.N, win0_15.index t = ![q0.val, q1.val] :=
  (by decide +kernel : ∀ (q0 : Fin 32) (q1 : Fin 8), ∃ t : Fin grid0.N, win0_15.index t = ![q0.val, q1.val])

/-- So every index of the array is written back by some point: the one whose block holds row `i 0 / 256` of blocks
    and column `i 1 / 256` of blocks. -/
theorem cover15 (i : S8192x2048.Idx) :
    ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨t, ht⟩ := idx_onto15 ⟨(i 0).val / 256, by omega⟩ ⟨(i 1).val / 256, by omega⟩
  have q0 : win0_15.index t (0 : Fin 2) = (i 0).val / 256 := congrFun ht 0
  have q1 : win0_15.index t (1 : Fin 2) = (i 1).val / 256 := congrFun ht 1
  refine ⟨t, flush0_15 t, ?_⟩
  rw [mem_blk15]
  intro a
  match a with
  | ⟨0, _⟩ =>
    show win0_15.index t (0 : Fin 2) * 256 ≤ (i 0).val ∧ (i 0).val < win0_15.index t (0 : Fin 2) * 256 + 256
    omega
  | ⟨1, _⟩ =>
    show win0_15.index t (1 : Fin 2) * 256 ≤ (i 1).val ∧ (i 1).val < win0_15.index t (1 : Fin 2) * 256 + 256
    omega

/-- An index of the array lies in point `t`'s block of output window 16 iff each coordinate lies in the block's range. -/
theorem mem_blk16 (t : Fin cfg0.N) (i : S8192x2048.Idx) :
    i ∈ ((cfg0.win 16).blk t).view.set ↔ ∀ a : Fin 2, win0_16.index t a * S256x256.size a ≤ (i a).val
      ∧ (i a).val < win0_16.index t a * S256x256.size a + S256x256.size a := by
  show i ∈ ((View.whole main_v20_1).slice (win0_16.rect t)).set ↔ _
  rw [View.set_slice_whole, Rect.mem_set_unit]
  exact Iff.rfl

/-- Every 256×256 block of the 8192×2048 array is some grid point's block of output window 16. -/
theorem idx_onto16 : ∀ (q0 : Fin 32) (q1 : Fin 8), ∃ t : Fin cfg0.N, win0_16.index t = ![q0.val, q1.val] :=
  (by decide +kernel : ∀ (q0 : Fin 32) (q1 : Fin 8), ∃ t : Fin grid0.N, win0_16.index t = ![q0.val, q1.val])

/-- So every index of the array is written back by some point: the one whose block holds row `i 0 / 256` of blocks
    and column `i 1 / 256` of blocks. -/
theorem cover16 (i : S8192x2048.Idx) :
    ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨t, ht⟩ := idx_onto16 ⟨(i 0).val / 256, by omega⟩ ⟨(i 1).val / 256, by omega⟩
  have q0 : win0_16.index t (0 : Fin 2) = (i 0).val / 256 := congrFun ht 0
  have q1 : win0_16.index t (1 : Fin 2) = (i 1).val / 256 := congrFun ht 1
  refine ⟨t, flush0_16 t, ?_⟩
  rw [mem_blk16]
  intro a
  match a with
  | ⟨0, _⟩ =>
    show win0_16.index t (0 : Fin 2) * 256 ≤ (i 0).val ∧ (i 0).val < win0_16.index t (0 : Fin 2) * 256 + 256
    omega
  | ⟨1, _⟩ =>
    show win0_16.index t (1 : Fin 2) * 256 ≤ (i 1).val ∧ (i 1).val < win0_16.index t (1 : Fin 2) * 256 + 256
    omega

end Cert.Lstm.Grid

end
-- ==== Proof.BlockReads.lean ====
/-
  The tiles the body holds at a grid point, as pieces of the whole argument arrays.

  A window's block at a point starts, on each axis, at (block index) × (block extent), and the block indices are those
  of Grid.lean. So at the point whose output block is (bm, bn): the input, state and old-cell tiles hold array rows
  256·bm + a; the weight tiles hold weight rows 256·bn + a (input half, or state half, per the host's cut); the bias
  tiles hold biases 256·bn + q.
-/
import proofs.«170089_j9878424781322_2_alg».proof.Proof.Gen.KernelIdeal.Frame
import proofs.«170089_j9878424781322_2_alg».proof.Proof.HostArrays
import proofs.«170089_j9878424781322_2_alg».proof.Proof.Grid

set_option maxRecDepth 16384

noncomputable section

namespace Cert.Lstm.Blocks

open Cert.KernelIdeal Cert.KernelIdeal.Gen Idealize.ShloMosaic Idealize.ShloMosaic.TcCoe Idealize.SL.Sem
open Idealize.ShloMosaic.ValueIdx Cert.Lstm Cert.Lstm.Grid

variable (m : (ℓ : Loc nD τ sig) → Buf (Elt Ideal) ℓ)

/-- Row `a` of the input tile at point `t` is row `r` of the input array, `r` = 256 · (block row) + `a`. -/
theorem blk_0 (c : Dev nD) (t : Fin cfg0.N) (a : Fin 256) (k : Fin 2048) (r : Fin 8192)
    (hr : r.val = win0_15.index t (0 : Fin 2) * 256 + 1 * a.val) :
    (iblk m c 0 t : Vec Ideal S256x2048 .f32) (ix2 a k) = m ((c : Thread nD τ).loc main_arg0) (ix2 r k) := by
  unfold iblk
  rw [View.read_apply]
  show V m c main_arg0 _ = _
  rw [V_main_arg0]
  refine congrArg _ (funext fun ax => Fin.ext ?_)
  obtain ⟨e0, e1, e2, e3, -⟩ := idx_rows t
  match ax with
  | ⟨0, _⟩ => show win0_0.index t (0 : Fin 2) * 256 + 1 * a.val = r.val; omega
  | ⟨1, _⟩ => show win0_0.index t (1 : Fin 2) * 2048 + 1 * k.val = k.val; omega

/-- Row `a` of the state tile at point `t` is row `r` of the state array, `r` = 256 · (block row) + `a`. -/
theorem blk_1 (c : Dev nD) (t : Fin cfg0.N) (a : Fin 256) (k : Fin 2048) (r : Fin 8192)
    (hr : r.val = win0_15.index t (0 : Fin 2) * 256 + 1 * a.val) :
    (iblk m c 1 t : Vec Ideal S256x2048 .f32) (ix2 a k) = m ((c : Thread nD τ).loc main_arg1) (ix2 r k) := by
  unfold iblk
  rw [View.read_apply]
  show V m c main_arg1 _ = _
  rw [V_main_arg1]
  refine congrArg _ (funext fun ax => Fin.ext ?_)
  obtain ⟨e0, e1, e2, e3, -⟩ := idx_rows t
  match ax with
  | ⟨0, _⟩ => show win0_1.index t (0 : Fin 2) * 256 + 1 * a.val = r.val; omega
  | ⟨1, _⟩ => show win0_1.index t (1 : Fin 2) * 2048 + 1 * k.val = k.val; omega

/-- The old-cell tile at point `t`, at entry `y`, is the old cell state at the array index `i` of that entry. -/
theorem blk_2 (c : Dev nD) (t : Fin cfg0.N) (y : S256x256.Idx) (i : S8192x2048.Idx)
    (h0 : (i 0).val = win0_15.index t (0 : Fin 2) * 256 + 1 * (y 0).val)
    (h1 : (i 1).val = win0_15.index t (1 : Fin 2) * 256 + 1 * (y 1).val) :
    (iblk m c 2 t : Vec Ideal S256x256 .f32) y = m ((c : Thread nD τ).loc main_arg2) i := by
  unfold iblk
  rw [View.read_apply]
  show V m c main_arg2 _ = _
  rw [V_main_arg2]
  refine congrArg _ (funext fun ax => Fin.ext ?_)
  obtain ⟨-, -, -, -, e4, e5⟩ := idx_rows t
  match ax with
  | ⟨0, _⟩ => show win0_2.index t (0 : Fin 2) * 256 + 1 * (y 0).val = (i 0).val; omega
  | ⟨1, _⟩ => show win0_2.index t (1 : Fin 2) * 256 + 1 * (y 1).val = (i 1).val; omega

/-- Row `a` of weight tile 3 at point `t` is the input half of weight row `n`, `n` = 256 · (block column) + `a`. -/
theorem blk_3 (c : Dev nD) (t : Fin cfg0.N) (a : Fin 256) (k : Fin 2048) (n : Fin 2048)
    (hn : n.val = win0_15.index t (1 : Fin 2) * 256 + 1 * a.val) :
    (iblk m c 3 t : Vec Ideal S256x2048 .bf16) (ix2 a k) = m ((c : Thread nD τ).loc main_arg3) (ix2 n (inCol k)) := by
  rw [← Host.v1_at m c n k]
  unfold iblk
  rw [View.read_apply]
  show (V m c main_v1 : S2048x2048.Idx → EReal) _ = (V m c main_v1 : S2048x2048.Idx → EReal) _
  refine congrArg (V m c main_v1 : S2048x2048.Idx → EReal) (funext fun ax => Fin.ext ?_)
  obtain ⟨e0, e1⟩ := idx_w3 t
  match ax with
  | ⟨0, _⟩ => show win0_3.index t (0 : Fin 2) * 256 + 1 * a.val = n.val; omega
  | ⟨1, _⟩ => show win0_3.index t (1 : Fin 2) * 2048 + 1 * k.val = k.val; omega

/-- Row `a` of weight tile 4 at point `t` is the state half of weight row `n`, `n` = 256 · (block column) + `a`. -/
theorem blk_4 (c : Dev nD) (t : Fin cfg0.N) (a : Fin 256) (k : Fin 2048) (n : Fin 2048)
    (hn : n.val = win0_15.index t (1 : Fin 2) * 256 + 1 * a.val) :
    (iblk m c 4 t : Vec Ideal S256x2048 .bf16) (ix2 a k) = m ((c : Thread nD τ).loc main_arg3) (ix2 n (stCol k)) := by
  rw [← Host.v3_at m c n k]
  unfold iblk
  rw [View.read_apply]
  show (V m c main_v3 : S2048x2048.Idx → EReal) _ = (V m c main_v3 : S2048x2048.Idx → EReal) _
  refine congrArg (V m c main_v3 : S2048x2048.Idx → EReal) (funext fun ax => Fin.ext ?_)
  obtain ⟨e0, e1⟩ := idx_w4 t
  match ax with
  | ⟨0, _⟩ => show win0_4.index t (0 : Fin 2) * 256 + 1 * a.val = n.val; omega
  | ⟨1, _⟩ => show win0_4.index t (1 : Fin 2) * 2048 + 1 * k.val = k.val; omega

/-- Row `a` of weight tile 6 at point `t` is the input half of weight row `n`, `n` = 256 · (block column) + `a`. -/
theorem blk_6 (c : Dev nD) (t : Fin cfg0.N) (a : Fin 256) (k : Fin 2048) (n : Fin 2048)
    (hn : n.val = win0_15.index t (1 : Fin 2) * 256 + 1 * a.val) :
    (iblk m c 6 t : Vec Ideal S256x2048 .bf16) (ix2 a k) = m ((c : Thread nD τ).loc main_arg5) (ix2 n (inCol k)) := by
  rw [← Host.v5_at m c n k]
  unfold iblk
  rw [View.read_apply]
  show (V m c main_v5 : S2048x2048.Idx → EReal) _ = (V m c main_v5 : S2048x2048.Idx → EReal) _
  refine congrArg (V m c main_v5 : S2048x2048.Idx → EReal) (funext fun ax => Fin.ext ?_)
  obtain ⟨e0, e1⟩ := idx_w6 t
  match ax with
  | ⟨0, _⟩ => show win0_6.index t (0 : Fin 2) * 256 + 1 * a.val = n.val; omega
  | ⟨1, _⟩ => show win0_6.index t (1 : Fin 2) * 2048 + 1 * k.val = k.val; omega

/-- Row `a` of weight tile 7 at point `t` is the state half of weight row `n`, `n` = 256 · (block column) + `a`. -/
theorem blk_7 (c : Dev nD) (t : Fin cfg0.N) (a : Fin 256) (k : Fin 2048) (n : Fin 2048)
    (hn : n.val = win0_15.index t (1 : Fin 2) * 256 + 1 * a.val) :
    (iblk m c 7 t : Vec Ideal S256x2048 .bf16) (ix2 a k) = m ((c : Thread nD τ).loc main_arg5) (ix2 n (stCol k)) := by
  rw [← Host.v7_at m c n k]
  unfold iblk
  rw [View.read_apply]
  show (V m c main_v7 : S2048x2048.Idx → EReal) _ = (V m c main_v7 : S2048x2048.Idx → EReal) _
  refine congrArg (V m c main_v7 : S2048x2048.Idx → EReal) (funext fun ax => Fin.ext ?_)
  obtain ⟨e0, e1⟩ := idx_w7 t
  match ax with
  | ⟨0, _⟩ => show win0_7.index t (0 : Fin 2) * 256 + 1 * a.val = n.val; omega
  | ⟨1, _⟩ => show win0_7.index t (1 : Fin 2) * 2048 + 1 * k.val = k.val; omega

/-- Row `a` of weight tile 9 at point `t` is the input half of weight row `n`, `n` = 256 · (block column) + `a`. -/
theorem blk_9 (c : Dev nD) (t : Fin cfg0.N) (a : Fin 256) (k : Fin 2048) (n : Fin 2048)
    (hn : n.val = win0_15.index t (1 : Fin 2) * 256 + 1 * a.val) :
    (iblk m c 9 t : Vec Ideal S256x2048 .bf16) (ix2 a k) = m ((c : Thread nD τ).loc main_arg7) (ix2 n (inCol k)) := by
  rw [← Host.v9_at m c n k]
  unfold iblk
  rw [View.read_apply]
  show (V m c main_v9 : S2048x2048.Idx → EReal) _ = (V m c main_v9 : S2048x2048.Idx → EReal) _
  refine congrArg (V m c main_v9 : S2048x2048.Idx → EReal) (funext fun ax => Fin.ext ?_)
  obtain ⟨e0, e1⟩ := idx_w9 t
  match ax with
  | ⟨0, _⟩ => show win0_9.index t (0 : Fin 2) * 256 + 1 * a.val = n.val; omega
  | ⟨1, _⟩ => show win0_9.index t (1 : Fin 2) * 2048 + 1 * k.val = k.val; omega

/-- Row `a` of weight tile 10 at point `t` is the state half of weight row `n`, `n` = 256 · (block column) + `a`. -/
theorem blk_10 (c : Dev nD) (t : Fin cfg0.N) (a : Fin 256) (k : Fin 2048) (n : Fin 2048)
    (hn : n.val = win0_15.index t (1 : Fin 2) * 256 + 1 * a.val) :
    (iblk m c 10 t : Vec Ideal S256x2048 .bf16) (ix2 a k) = m ((c : Thread nD τ).loc main_arg7) (ix2 n (stCol k)) := by
  rw [← Host.v11_at m c n k]
  unfold iblk
  rw [View.read_apply]
  show (V m c main_v11 : S2048x2048.Idx → EReal) _ = (V m c main_v11 : S2048x2048.Idx → EReal) _
  refine congrArg (V m c main_v11 : S2048x2048.Idx → EReal) (funext fun ax => Fin.ext ?_)
  obtain ⟨e0, e1⟩ := idx_w10 t
  match ax with
  | ⟨0, _⟩ => show win0_10.index t (0 : Fin 2) * 256 + 1 * a.val = n.val; omega
  | ⟨1, _⟩ => show win0_10.index t (1 : Fin 2) * 2048 + 1 * k.val = k.val; omega

/-- Row `a` of weight tile 12 at point `t` is the input half of weight row `n`, `n` = 256 · (block column) + `a`. -/
theorem blk_12 (c : Dev nD) (t : Fin cfg0.N) (a : Fin 256) (k : Fin 2048) (n : Fin 2048)
    (hn : n.val = win0_15.index t (1 : Fin 2) * 256 + 1 * a.val) :
    (iblk m c 12 t : Vec Ideal S256x2048 .bf16) (ix2 a k) = m ((c : Thread nD τ).loc main_arg9) (ix2 n (inCol k)) := by
  rw [← Host.v13_at m c n k]
  unfold iblk
  rw [View.read_apply]
  show (V m c main_v13 : S2048x2048.Idx → EReal) _ = (V m c main_v13 : S2048x2048.Idx → EReal) _
  refine congrArg (V m c main_v13 : S2048x2048.Idx → EReal) (funext fun ax => Fin.ext ?_)
  obtain ⟨e0, e1⟩ := idx_w12 t
  match ax with
  | ⟨0, _⟩ => show win0_12.index t (0 : Fin 2) * 256 + 1 * a.val = n.val; omega
  | ⟨1, _⟩ => show win0_12.index t (1 : Fin 2) * 2048 + 1 * k.val = k.val; omega

/-- Row `a` of weight tile 13 at point `t` is the state half of weight row `n`, `n` = 256 · (block column) + `a`. -/
theorem blk_13 (c : Dev nD) (t : Fin cfg0.N) (a : Fin 256) (k : Fin 2048) (n : Fin 2048)
    (hn : n.val = win0_15.index t (1 : Fin 2) * 256 + 1 * a.val) :
    (iblk m c 13 t : Vec Ideal S256x2048 .bf16) (ix2 a k) = m ((c : Thread nD τ).loc main_arg9) (ix2 n (stCol k)) := by
  rw [← Host.v15_at m c n k]
  unfold iblk
  rw [View.read_apply]
  show (V m c main_v15 : S2048x2048.Idx → EReal) _ = (V m c main_v15 : S2048x2048.Idx → EReal) _
  refine congrArg (V m c main_v15 : S2048x2048.Idx → EReal) (funext fun ax => Fin.ext ?_)
  obtain ⟨e0, e1⟩ := idx_w13 t
  match ax with
  | ⟨0, _⟩ => show win0_13.index t (0 : Fin 2) * 256 + 1 * a.val = n.val; omega
  | ⟨1, _⟩ => show win0_13.index t (1 : Fin 2) * 2048 + 1 * k.val = k.val; omega

/-- Entry `q` of bias tile 5 at point `t` is bias `n`, `n` = 256 · (block column) + `q`. -/
theorem blk_5 (c : Dev nD) (t : Fin cfg0.N) (q : Fin 256) (n : Fin 2048)
    (hn : n.val = win0_15.index t (1 : Fin 2) * 256 + 1 * q.val) :
    (iblk m c 5 t : Vec Ideal S1x256 .f32) (ix2 (0 : Fin 1) q) = m ((c : Thread nD τ).loc main_arg4) (ix1 n) := by
  rw [← Host.v16_at m c n]
  unfold iblk
  rw [View.read_apply]
  show (V m c main_v16 : S1x2048.Idx → EReal) _ = (V m c main_v16 : S1x2048.Idx → EReal) _
  refine congrArg (V m c main_v16 : S1x2048.Idx → EReal) (funext fun ax => Fin.ext ?_)
  obtain ⟨e0, e1⟩ := idx_b5 t
  match ax with
  | ⟨0, _⟩ => show win0_5.index t (0 : Fin 2) * 1 + 1 * 0 = 0; omega
  | ⟨1, _⟩ => show win0_5.index t (1 : Fin 2) * 256 + 1 * q.val = n.val; omega

/-- Entry `q` of bias tile 8 at point `t` is bias `n`, `n` = 256 · (block column) + `q`. -/
theorem blk_8 (c : Dev nD) (t : Fin cfg0.N) (q : Fin 256) (n : Fin 2048)
    (hn : n.val = win0_15.index t (1 : Fin 2) * 256 + 1 * q.val) :
    (iblk m c 8 t : Vec Ideal S1x256 .f32) (ix2 (0 : Fin 1) q) = m ((c : Thread nD τ).loc main_arg6) (ix1 n) := by
  rw [← Host.v17_at m c n]
  unfold iblk
  rw [View.read_apply]
  show (V m c main_v17 : S1x2048.Idx → EReal) _ = (V m c main_v17 : S1x2048.Idx → EReal) _
  refine congrArg (V m c main_v17 : S1x2048.Idx → EReal) (funext fun ax => Fin.ext ?_)
  obtain ⟨e0, e1⟩ := idx_b8 t
  match ax with
  | ⟨0, _⟩ => show win0_8.index t (0 : Fin 2) * 1 + 1 * 0 = 0; omega
  | ⟨1, _⟩ => show win0_8.index t (1 : Fin 2) * 256 + 1 * q.val = n.val; omega

/-- Entry `q` of bias tile 11 at point `t` is bias `n`, `n` = 256 · (block column) + `q`. -/
theorem blk_11 (c : Dev nD) (t : Fin cfg0.N) (q : Fin 256) (n : Fin 2048)
    (hn : n.val = win0_15.index t (1 : Fin 2) * 256 + 1 * q.val) :
    (iblk m c 11 t : Vec Ideal S1x256 .f32) (ix2 (0 : Fin 1) q) = m ((c : Thread nD τ).loc main_arg8) (ix1 n) := by
  rw [← Host.v18_at m c n]
  unfold iblk
  rw [View.read_apply]
  show (V m c main_v18 : S1x2048.Idx → EReal) _ = (V m c main_v18 : S1x2048.Idx → EReal) _
  refine congrArg (V m c main_v18 : S1x2048.Idx → EReal) (funext fun ax => Fin.ext ?_)
  obtain ⟨e0, e1⟩ := idx_b11 t
  match ax with
  | ⟨0, _⟩ => show win0_11.index t (0 : Fin 2) * 1 + 1 * 0 = 0; omega
  | ⟨1, _⟩ => show win0_11.index t (1 : Fin 2) * 256 + 1 * q.val = n.val; omega

/-- Entry `q` of bias tile 14 at point `t` is bias `n`, `n` = 256 · (block column) + `q`. -/
theorem blk_14 (c : Dev nD) (t : Fin cfg0.N) (q : Fin 256) (n : Fin 2048)
    (hn : n.val = win0_15.index t (1 : Fin 2) * 256 + 1 * q.val) :
    (iblk m c 14 t : Vec Ideal S1x256 .f32) (ix2 (0 : Fin 1) q) = m ((c : Thread nD τ).loc main_arg10) (ix1 n) := by
  rw [← Host.v19_at m c n]
  unfold iblk
  rw [View.read_apply]
  show (V m c main_v19 : S1x2048.Idx → EReal) _ = (V m c main_v19 : S1x2048.Idx → EReal) _
  refine congrArg (V m c main_v19 : S1x2048.Idx → EReal) (funext fun ax => Fin.ext ?_)
  obtain ⟨e0, e1⟩ := idx_b14 t
  match ax with
  | ⟨0, _⟩ => show win0_14.index t (0 : Fin 2) * 1 + 1 * 0 = 0; omega
  | ⟨1, _⟩ => show win0_14.index t (1 : Fin 2) * 256 + 1 * q.val = n.val; omega

end Cert.Lstm.Blocks

end
-- ==== Proof.KernelValue.lean ====
/-
  The kernel's run, read: its two result arrays end as the cell's new hidden state and new cell state of the
  argument arrays.

  At a grid point the body's stores fill each output tile whole, so what the point writes back is the stored tile;
  by Tile.lean and BlockReads.lean its entry `y` is the cell's value at the array index the tile's entry `y` lands on —
  that is, the point writes back exactly its block of the cell's result. The output blocks cover the arrays
  (Grid.lean), so after the last point each result array IS the cell's result, and the arguments are as launched.
-/
import proofs.«170089_j9878424781322_2_alg».proof.Proof.Gen.KernelIdeal.Value
import proofs.«170089_j9878424781322_2_alg».proof.Proof.Tile
import proofs.«170089_j9878424781322_2_alg».proof.Proof.BlockReads
import proofs.«170089_j9878424781322_2_alg».proof.Proof.Grid
import Idealize.ShloMosaic.Lib.Pipeline.Value

set_option maxRecDepth 16384

noncomputable section

namespace Cert.Lstm.Kernel

open Cert.KernelIdeal Cert.KernelIdeal.Gen Cert.KernelIdeal.Value
open Idealize.ShloMosaic Idealize.ShloMosaic.TcCoe Idealize.SL.Sem
open Idealize.ShloMosaic.ValueIdx Cert.Lstm Cert.Lstm.Body Cert.Lstm.Blocks Cert.Lstm.Grid
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The cell's new hidden state of the argument arrays as launched. -/
abbrev resH (c : Dev nD) : S8192x2048.Idx → EReal :=
  newH (m ((c : Thread nD τ).loc main_arg0)) (m ((c : Thread nD τ).loc main_arg1)) (m ((c : Thread nD τ).loc main_arg2)) (m ((c : Thread nD τ).loc main_arg9)) (m ((c : Thread nD τ).loc main_arg10))

/-- The cell's new cell state of the argument arrays as launched. -/
abbrev resC (c : Dev nD) : S8192x2048.Idx → EReal :=
  newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back to the first result is its block of the new hidden state. -/
theorem flushedH (c : Dev nD) (t : Fin cfg0.N) :
    (dats m 0 c).flushed 15 t = ((cfg0.win 15).blk t).view.read (Elt Ideal) (resH m c) := by
  rw [flushed15]
  unfold out0_15
  rw [View.canon_unit_zero hz]
  simp only [View.ld_unit_zero (S := S256x2048) hz, View.ld_unit_zero (S := S256x256) hz, View.ld_unit_zero (S := S1x256) hz]
  funext y
  show k0_pay2 (k0_pay3 (iblk m c 0 t)) (k0_pay4 (iblk m c 1 t)) (iblk m c 2 t) (iblk m c 12 t) (iblk m c 13 t) (iblk m c 14 t) y
      = resH m c (((cfg0.win 15).blk t).view.emb y)
  exact tile_newH (m ((c : Thread nD τ).loc main_arg0)) (m ((c : Thread nD τ).loc main_arg1)) (m ((c : Thread nD τ).loc main_arg2)) (m ((c : Thread nD τ).loc main_arg9)) (m ((c : Thread nD τ).loc main_arg10))
    (iblk m c 0 t) (iblk m c 1 t) (iblk m c 2 t) (iblk m c 12 t) (iblk m c 13 t) (iblk m c 14 t) y (((cfg0.win 15).blk t).view.emb y)
    (fun k => blk_0 m c t (y 0) k _ rfl) (fun k => blk_1 m c t (y 0) k _ rfl) (blk_2 m c t y _ rfl rfl)
    (fun k => blk_12 m c t (y 1) k _ rfl) (fun k => blk_13 m c t (y 1) k _ rfl) (blk_14 m c t (y 1) _ rfl)

/-- What point `t` writes back to the second result is its block of the new cell state. -/
theorem flushedC (c : Dev nD) (t : Fin cfg0.N) :
    (dats m 0 c).flushed 16 t = ((cfg0.win 16).blk t).view.read (Elt Ideal) (resC m c) := by
  rw [flushed16]
  unfold out0_16
  rw [View.canon_unit_zero hz]
  simp only [View.ld_unit_zero (S := S256x2048) hz, View.ld_unit_zero (S := S256x256) hz, View.ld_unit_zero (S := S1x256) hz]
  funext y
  obtain ⟨o0, o1⟩ := idx_out t
  show k0_pay1 (k0_pay3 (iblk m c 0 t)) (k0_pay4 (iblk m c 1 t))
        (k0_pay5 (iblk m c 0 t) (iblk m c 1 t) (iblk m c 2 t) (iblk m c 3 t) (iblk m c 4 t) (iblk m c 5 t)) (k0_pay6 (iblk m c 0 t) (iblk m c 1 t) (iblk m c 6 t) (iblk m c 7 t) (iblk m c 8 t)) (k0_pay7 (iblk m c 9 t))
        (iblk m c 10 t) (iblk m c 11 t) y
      = resC m c (((cfg0.win 16).blk t).view.emb y)
  have i0 : ((((cfg0.win 16).blk t).view.emb y) 0).val = win0_15.index t (0 : Fin 2) * 256 + 1 * (y 0).val := by
    show win0_16.index t (0 : Fin 2) * 256 + 1 * (y 0).val = _
    rw [o0]
  have i1 : ((((cfg0.win 16).blk t).view.emb y) 1).val = win0_15.index t (1 : Fin 2) * 256 + 1 * (y 1).val := by
    show win0_16.index t (1 : Fin 2) * 256 + 1 * (y 1).val = _
    rw [o1]
  exact tile_newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y (((cfg0.win 16).blk t).view.emb y)
    (fun k => blk_0 m c t (y 0) k _ i0) (fun k => blk_1 m c t (y 0) k _ i0) (blk_2 m c t y _ i0 i1)
    (fun k => blk_3 m c t (y 1) k _ i1) (fun k => blk_4 m c t (y 1) k _ i1) (blk_5 m c t (y 1) _ i1)
    (fun k => blk_6 m c t (y 1) k _ i1) (fun k => blk_7 m c t (y 1) k _ i1) (blk_8 m c t (y 1) _ i1)
    (fun k => blk_9 m c t (y 1) k _ i1) (fun k => blk_10 m c t (y 1) k _ i1) (blk_11 m c t (y 1) _ i1)

/-- After the last point the first result array is the new hidden state. -/
theorem finalH (c : Dev nD) : (dats m 0 c).arrAt 15 cfg0.N = resH m c :=
  (dats m 0 c).arrAt_eq_of_cover 15 (resH m c) (fun t _ => flushedH m c t) cover15

/-- After the last point the second result array is the new cell state. -/
theorem finalC (c : Dev nD) : (dats m 0 c).arrAt 16 cfg0.N = resC m c :=
  (dats m 0 c).arrAt_eq_of_cover 16 (resC m c) (fun t _ => flushedC m c t) cover16

/-- The kernel's run: every weakly fair execution terminates with the results at the cell's two formulas of the
    arguments and the arguments unchanged. -/
theorem run : θ_run defs (onTc (τ := τ) (main (F := Ideal))) ⟨m, fun _ => 0, ρ⟩ fun r => ∀ c : Dev nD,
      r.2.mem ((c : Thread nD τ).loc main_v20_0) = resH m c
      ∧ r.2.mem ((c : Thread nD τ).loc main_v20_1) = resC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalH m c), (h c).2.1.trans (finalC m c), (h c).2.2⟩)
    (run_blocks m ρ)

end Cert.Lstm.Kernel

end
-- ==== Proof.lean ====
/-
  An LSTM-style cell as a tiled kernel, against the same cell written over whole arrays: equal on the extended reals.

  The cell. With input `x`, state `h` and cell state `c` (8192 rows of 2048), four weight matrices (2048 rows of 4096:
  the first 2048 columns meet `x`, the last 2048 meet `h`) and four bias vectors,
      gate_g (r, n) = (∑ k, x (r, k) · W_g (n, k) + ∑ k, h (r, k) · W_g (n, 2048 + k)) + b_g n,
      new_c = c · σ(gate₁) + σ(gate₂) · tanh(gate₃),      new_h = tanh(c) · σ(gate₄),      σ z = 1 / (1 + e^(-z)).

  The reference joins `x` and `h` into rows of 4096 entries and multiplies with the transposed weights: one sum over
  4096 columns, which splits at column 2048 into the two sums above (RefCell.lean). It spells σ out as negate,
  exponential, add one, divide.
  The kernel never joins them: the host cuts each weight matrix into its two halves, and at grid point (n, m) the body
  multiplies a 256-row tile of `x`, and of `h`, with the 256 weight rows of its units (a product that contracts the
  last axis of both operands), adds the two products and the bias row, applies σ and tanh, and stores one 256×256 tile
  of each result (Payload.lean, Tile.lean). The tiles it holds are pieces of the argument arrays (HostArrays.lean,
  BlockReads.lean), the 8 × 32 output tiles cover the results (Grid.lean), so the kernel's results are the cell's
  (KernelValue.lean).

  The only law between the two sides is that a finite sum splits into the sums over two halves of its index set: it
  holds in any commutative monoid, at the infinities too, so the inputs' finiteness is never used. Narrowing to half
  precision is the identity on the extended reals, and the kernel's one-operation σ is the reference's spelt-out σ
  by definition. The idealization rewrote nothing, so `preserves` has nothing to state.
-/
import proofs.«170089_j9878424781322_2_alg».proof.Defs
import proofs.«170089_j9878424781322_2_alg».proof.Proof.Gen.Kernel
import proofs.«170089_j9878424781322_2_alg».proof.Proof.Gen.Kernel.Skeleton
import proofs.«170089_j9878424781322_2_alg».proof.Proof.Gen.Kernel.Launch
import proofs.«170089_j9878424781322_2_alg».proof.Proof.Gen.Kernel.Points
import proofs.«170089_j9878424781322_2_alg».proof.Proof.Gen.Kernel.Frame
import proofs.«170089_j9878424781322_2_alg».proof.Proof.Gen.KernelIdeal
import proofs.«170089_j9878424781322_2_alg».proof.Proof.Gen.KernelIdeal.Skeleton
import proofs.«170089_j9878424781322_2_alg».proof.Proof.Gen.KernelIdeal.Launch
import proofs.«170089_j9878424781322_2_alg».proof.Proof.Gen.KernelIdeal.Points
import proofs.«170089_j9878424781322_2_alg».proof.Proof.Gen.KernelIdeal.Frame
import proofs.«170089_j9878424781322_2_alg».proof.Proof.Gen.ReferenceIdeal
import proofs.«170089_j9878424781322_2_alg».proof.Proof.Gen.Pre_finite_inputs
import proofs.«170089_j9878424781322_2_alg».proof.Proof.Gen.KernelIdeal.Value
import proofs.«170089_j9878424781322_2_alg».proof.Proof.Gen.ReferenceIdeal.Run
import proofs.«170089_j9878424781322_2_alg».proof.Proof.Gen.ReferenceIdeal.Read
import proofs.«170089_j9878424781322_2_alg».proof.Proof.RefCell
import proofs.«170089_j9878424781322_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of array operations: its run, with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Both programs, from memories that agree on the arguments, end with the cell's new hidden state and new cell
    state of those arguments. -/
theorem algebraic : Cert.algebraic_KernelIdeal_ReferenceIdeal := by
  intro m ρ m' ρ' _ hagree
  refine ⟨fun c => Cert.Lstm.Kernel.resH m c, fun c => Cert.Lstm.Kernel.resC m c, Cert.Lstm.Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v44_eq, Cert.Lstm.Ref.newH_eq, e0, e1, e2, e9, e10]
  · obtain ⟨e0, e1, e2, e3, e4, e5, e6, e7, e8, e9, e10⟩ := hagree c
    rw [Cert.ReferenceIdeal.Read.val_main_v42_eq, Cert.Lstm.Ref.newC_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
